-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x13 : Shape := ⟨2, ![16384, 13]⟩
abbrev S16384x26 : Shape := ⟨2, ![16384, 26]⟩
abbrev S26x100000x16 : Shape := ⟨3, ![26, 100000, 16]⟩
abbrev S26x16 : Shape := ⟨2, ![26, 16]⟩
abbrev S429x1024 : Shape := ⟨2, ![429, 1024]⟩
abbrev S1024 : Shape := ⟨1, ![1024]⟩
abbrev S1024x1 : Shape := ⟨2, ![1024, 1]⟩
abbrev S1 : Shape := ⟨1, ![1]⟩
abbrev S_ : Shape := ⟨0, ![]⟩

class Facts : Prop where
  bcast_S_S16384x13 : S_.BroadcastsInDim S16384x13 (![] : Fin 0 → Fin S16384x13.rank)
  reducesTo_S16384x13_S_d0_1 : S16384x13.ReducesTo [0, 1] S_
  h_S_ : 0 < S_.numel
  bcast_S_S26x100000x16 : S_.BroadcastsInDim S26x100000x16 (![] : Fin 0 → Fin S26x100000x16.rank)
  reducesTo_S26x100000x16_S_d0_1_2 : S26x100000x16.ReducesTo [0, 1, 2] S_
  bcast_S_S26x16 : S_.BroadcastsInDim S26x16 (![] : Fin 0 → Fin S26x16.rank)
  reducesTo_S26x16_S_d0_1 : S26x16.ReducesTo [0, 1] S_
  bcast_S_S429x1024 : S_.BroadcastsInDim S429x1024 (![] : Fin 0 → Fin S429x1024.rank)
  reducesTo_S429x1024_S_d0_1 : S429x1024.ReducesTo [0, 1] S_
  bcast_S_S1024 : S_.BroadcastsInDim S1024 (![] : Fin 0 → Fin S1024.rank)
  reducesTo_S1024_S_d0 : S1024.ReducesTo [0] S_
  bcast_S_S1024x1 : S_.BroadcastsInDim S1024x1 (![] : Fin 0 → Fin S1024x1.rank)
  reducesTo_S1024x1_S_d0_1 : S1024x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S1024 .f32) (main_arg6 : FVec F S1024x1 .f32) (main_arg7 : FVec F S1 .f32) (main_v13 : IVec S_ 1) (main_v16 : IVec S429x1024 1) : IVec S_ 1 :=
  let main_c_5 : IVec S_ 1 := constantI S_ 1 1#1
  let main_v17 : IVec S_ 1 := (fun x v => Host.reduce IntOp.andi x v reducesTo_S429x1024_S_d0_1 h_S_) main_v16 main_c_5
  let main_v18 : IVec S_ 1 := andi main_v13 main_v17
  let main_v19 : FVec F S1024 .f32 := Host.absf main_arg5
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1 .f32 := Host.absf main_arg6
  let main_cst_8 : FVec F S_ .f32 := constant S_ .f32 0x7F800000#32
  let main_v25 : FVec F S1024x1 .f32 := broadcastInDim S1024x1 ![] bcast_S_S1024x1 main_cst_8
  let main_v26 : IVec S1024x1 1 := cmpf .olt main_v24 main_v25
  let main_c_9 : IVec S_ 1 := constantI S_ 1 1#1
  let main_v27 : IVec S_ 1 := (fun x v => Host.reduce IntOp.andi x v reducesTo_S1024x1_S_d0_1 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S16384x13 .f32) (main_arg1 : IVec S16384x26 32) (main_arg2 : FVec F S26x100000x16 .f32) (main_arg3 : FVec F S26x16 .f32) (main_arg4 : FVec F S429x1024 .f32) (main_arg5 : FVec F S1024 .f32) (main_arg6 : FVec F S1024x1 .f32) (main_arg7 : FVec F S1 .f32) : IVec S_ 1 :=
  let main_v0 : FVec F S16384x13 .f32 := Host.absf main_arg0
  let main_cst : FVec F S_ .f32 := constant S_ .f32 0x7F800000#32
  let main_v1 : FVec F S16384x13 .f32 := broadcastInDim S16384x13 ![] bcast_S_S16384x13 main_cst
  let main_v2 : IVec S16384x13 1 := cmpf .olt main_v0 main_v1
  let main_c : IVec S_ 1 := constantI S_ 1 1#1
  let main_v3 : IVec S_ 1 := (fun x v => Host.reduce IntOp.andi x v reducesTo_S16384x13_S_d0_1 h_S_) main_v2 main_c
  let main_v4 : FVec F S26x100000x16 .f32 := Host.absf main_arg2
  let main_cst_0 : FVec F S_ .f32 := constant S_ .f32 0x7F800000#32
  let main_v5 : FVec F S26x100000x16 .f32 := broadcastInDim S26x100000x16 ![] bcast_S_S26x100000x16 main_cst_0
  let main_v6 : IVec S26x100000x16 1 := cmpf .olt main_v4 main_v5
  let main_c_1 : IVec S_ 1 := constantI S_ 1 1#1
  let main_v7 : IVec S_ 1 := (fun x v => Host.reduce IntOp.andi x v reducesTo_S26x100000x16_S_d0_1_2 h_S_) main_v6 main_c_1
  let main_v8 : IVec S_ 1 := andi main_v3 main_v7
  let main_v9 : FVec F S26x16 .f32 := Host.absf main_arg3
  let main_cst_2 : FVec F S_ .f32 := constant S_ .f32 0x7F800000#32
  let main_v10 : FVec F S26x16 .f32 := broadcastInDim S26x16 ![] bcast_S_S26x16 main_cst_2
  let main_v11 : IVec S26x16 1 := cmpf .olt main_v9 main_v10
  let main_c_3 : IVec S_ 1 := constantI S_ 1 1#1
  let main_v12 : IVec S_ 1 := (fun x v => Host.reduce IntOp.andi x v reducesTo_S26x16_S_d0_1 h_S_) main_v11 main_c_3
  let main_v13 : IVec S_ 1 := andi main_v8 main_v12
  let main_v14 : FVec F S429x1024 .f32 := Host.absf main_arg4
  let main_cst_4 : FVec F S_ .f32 := constant S_ .f32 0x7F800000#32
  let main_v15 : FVec F S429x1024 .f32 := broadcastInDim S429x1024 ![] bcast_S_S429x1024 main_cst_4
  let main_v16 : IVec S429x1024 1 := cmpf .olt main_v14 main_v15
  fn_part1 (F := F) main_arg5 main_arg6 main_arg7 main_v13 main_v16
-- ==== Kernel.lean ====
abbrev S16384x13 : Shape := ⟨2, ![16384, 13]⟩
abbrev S16384x26 : Shape := ⟨2, ![16384, 26]⟩
abbrev S26x100000x16 : Shape := ⟨3, ![26, 100000, 16]⟩
abbrev S26x16 : Shape := ⟨2, ![26, 16]⟩
abbrev S429x1024 : Shape := ⟨2, ![429, 1024]⟩
abbrev S1024 : Shape := ⟨1, ![1024]⟩
abbrev S1024x1 : Shape := ⟨2, ![1024, 1]⟩
abbrev S1 : Shape := ⟨1, ![1]⟩
abbrev S26 : Shape := ⟨1, ![26]⟩
abbrev S1x26 : Shape := ⟨2, ![1, 26]⟩
abbrev S_ : Shape := ⟨0, ![]⟩
abbrev S16384x26x1 : Shape := ⟨3, ![16384, 26, 1]⟩
abbrev S16384x26x2 : Shape := ⟨3, ![16384, 26, 2]⟩
abbrev S16384x26x16 : Shape := ⟨3, ![16384, 26, 16]⟩
abbrev S1x26x16 : Shape := ⟨3, ![1, 26, 16]⟩
abbrev S16384x416 : Shape := ⟨2, ![16384, 416]⟩
abbrev S16384x429 : Shape := ⟨2, ![16384, 429]⟩
abbrev S16384x1 : Shape := ⟨2, ![16384, 1]⟩
abbrev S1024x429 : Shape := ⟨2, ![1024, 429]⟩
abbrev S1024x1024 : Shape := ⟨2, ![1024, 1024]⟩
abbrev S1x1024 : Shape := ⟨2, ![1, 1024]⟩
abbrev S1x1 : Shape := ⟨2, ![1, 1]⟩
abbrev S16384 : Shape := ⟨1, ![16384]⟩

abbrev nBuf : Space → Nat
  | .hbm => 36
  | .vmem => 8
  | .smem => 0
  | _ => 0

abbrev bufTy : (tb : Table) → Fin (tcTables nBuf tb) → BufTy
  | .hbm, ⟨0, _⟩ => ⟨S16384x13, .f32⟩
  | .hbm, ⟨1, _⟩ => ⟨S16384x26, .i32⟩
  | .hbm, ⟨2, _⟩ => ⟨S26x100000x16, .f32⟩
  | .hbm, ⟨3, _⟩ => ⟨S26x16, .f32⟩
  | .hbm, ⟨4, _⟩ => ⟨S429x1024, .f32⟩
  | .hbm, ⟨5, _⟩ => ⟨S1024, .f32⟩
  | .hbm, ⟨6, _⟩ => ⟨S1024x1, .f32⟩
  | .hbm, ⟨7, _⟩ => ⟨S1, .f32⟩
  | .hbm, ⟨8, _⟩ => ⟨S26, .i32⟩
  | .hbm, ⟨9, _⟩ => ⟨S1x26, .i32⟩
  | .hbm, ⟨10, _⟩ => ⟨S_, .i32⟩
  | .hbm, ⟨11, _⟩ => ⟨S1x26, .i32⟩
  | .hbm, ⟨12, _⟩ => ⟨S1x26, .i1⟩
  | .hbm, ⟨13, _⟩ => ⟨S_, .i32⟩
  | .hbm, ⟨14, _⟩ => ⟨S1x26, .i32⟩
  | .hbm, ⟨15, _⟩ => ⟨S1x26, .i32⟩
  | .hbm, ⟨16, _⟩ => ⟨S1x26, .i32⟩
  | .hbm, ⟨17, _⟩ => ⟨S_, .i32⟩
  | .hbm, ⟨18, _⟩ => ⟨S16384x26, .i32⟩
  | .hbm, ⟨19, _⟩ => ⟨S16384x26, .i1⟩
  | .hbm, ⟨20, _⟩ => ⟨S_, .i32⟩
  | .hbm, ⟨21, _⟩ => ⟨S16384x26, .i32⟩
  | .hbm, ⟨22, _⟩ => ⟨S16384x26, .i32⟩
  | .hbm, ⟨23, _⟩ => ⟨S16384x26, .i32⟩
  | .hbm, ⟨24, _⟩ => ⟨S16384x26, .i32⟩
  | .hbm, ⟨25, _⟩ => ⟨S16384x26x1, .i32⟩
  | .hbm, ⟨26, _⟩ => ⟨S16384x26x1, .i32⟩
  | .hbm, ⟨27, _⟩ => ⟨S16384x26x2, .i32⟩
  | .hbm, ⟨28, _⟩ => ⟨S16384x26x16, .f32⟩
  | .hbm, ⟨29, _⟩ => ⟨S1x26x16, .f32⟩
  | .hbm, ⟨30, _⟩ => ⟨S16384x26x16, .f32⟩
  | .hbm, ⟨31, _⟩ => ⟨S16384x26x16, .f32⟩
  | .hbm, ⟨32, _⟩ => ⟨S16384x416, .f32⟩
  | .hbm, ⟨33, _⟩ => ⟨S16384x429, .f32⟩
  | .hbm, ⟨34, _⟩ => ⟨S16384x1, .f32⟩
  | .hbm, ⟨35, _⟩ => ⟨S16384, .f32⟩
  | .local _ .vmem, ⟨0, _⟩ => ⟨S1024x429, .f32⟩
  | .local _ .vmem, ⟨1, _⟩ => ⟨S1024x429, .f32⟩
  | .local _ .vmem, ⟨2, _⟩ => ⟨S429x1024, .f32⟩
  | .local _ .vmem, ⟨3, _⟩ => ⟨S1024, .f32⟩
  | .local _ .vmem, ⟨4, _⟩ => ⟨S1024x1, .f32⟩
  | .local _ .vmem, ⟨5, _⟩ => ⟨S1, .f32⟩
  | .local _ .vmem, ⟨6, _⟩ => ⟨S1024x1, .f32⟩
  | .local _ .vmem, ⟨7, _⟩ => ⟨S1024x1, .f32⟩
  | _, _ => ⟨S16384x13, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c_1 : Ref sig .tc := ⟨.hbm, 17, rfl⟩
abbrev main_v7 : Ref sig .tc := ⟨.hbm, 18, rfl⟩
abbrev main_v8 : Ref sig .tc := ⟨.hbm, 19, rfl⟩
abbrev main_c_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x429 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S429x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S26_S1x26_1 : S26.BroadcastsInDim S1x26 (![1] : Fin 1 → Fin S1x26.rank)
  bcast_S_S1x26 : S_.BroadcastsInDim S1x26 (![] : Fin 0 → Fin S1x26.rank)
  bcast_S_S16384x26 : S_.BroadcastsInDim S16384x26 (![] : Fin 0 → Fin S16384x26.rank)
  bcast_S1x26_S16384x26_0_1 : S1x26.BroadcastsInDim S16384x26 (![0, 1] : Fin 2 → Fin S16384x26.rank)
  bcast_S16384x26_S16384x26x1_0_1 : S16384x26.BroadcastsInDim S16384x26x1 (![0, 1] : Fin 2 → Fin S16384x26x1.rank)
  concatenates_S16384x26x1_S16384x26x1_S16384x26x2_d2 : Shape.Concatenates [S16384x26x1, S16384x26x1] S16384x26x2 2
  bcast_S26x16_S1x26x16_1_2 : S26x16.BroadcastsInDim S1x26x16 (![1, 2] : Fin 2 → Fin S1x26x16.rank)
  bcast_S1x26x16_S16384x26x16_0_1_2 : S1x26x16.BroadcastsInDim S16384x26x16 (![0, 1, 2] : Fin 3 → Fin S16384x26x16.rank)
  shapeCasts_S16384x26x16_S16384x416 : S16384x26x16.ShapeCasts S16384x416
  concatenates_S16384x13_S16384x416_S16384x429_d1 : Shape.Concatenates [S16384x13, S16384x416] S16384x429 1
  inb_S1024x429_S1024x429_0_0 : ∀ a, (![0, 0] : Fin 2 → Nat) a + S1024x429.size a ≤ S1024x429.size a
  h_S1024x429 : 0 < S1024x429.numel
  shapeCasts_S1024x429_S1024x429 : S1024x429.ShapeCasts S1024x429
  bitsLt_bf16_f32 : FTy.bits .bf16 < FTy.bits .f32
  inb_S429x1024_S429x1024_0_0 : ∀ a, (![0, 0] : Fin 2 → Nat) a + S429x1024.size a ≤ S429x1024.size a
  h_S429x1024 : 0 < S429x1024.numel
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S1024x1024 : S1x1024.Broadcasts S1024x1024
  inb_S1024x1_S1024x1_0_0 : ∀ a, (![0, 0] : Fin 2 → Nat) a + S1024x1.size a ≤ S1024x1.size a
  h_S1024x1 : 0 < S1024x1.numel
  inb_S1_S1_0 : ∀ a, (![0] : Fin 1 → Nat) a + S1.size a ≤ S1.size a
  h_S1 : 0 < S1.numel
  shapeCasts_S1_S1x1 : S1.ShapeCasts S1x1
  broadcasts_S1x1_S1024x1 : S1x1.Broadcasts S1024x1
  shapeCasts_S16384x1_S16384 : S16384x1.ShapeCasts S16384
  gather_S26x100000x16_S16384x26x2_S16384x26x16_2_01_n_n_01_2_1116_wf : GatherDims.WF S26x100000x16 S16384x26x2 S16384x26x16 [2] [0, 1] [] [0, 1] [] 2 ![1, 1, 16]
  dot_S1024x429_S429x1024_S1024x1024_1_0_0_1_n_n_wf : DotDims.WF S1024x429 S429x1024 S1024x1024 [1] [0] [0] [1] [] []
  dot_S1024x1024_S1024x1_S1024x1_1_0_0_1_n_n_wf : DotDims.WF S1024x1024 S1024x1 S1024x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x429.size a ≤ S16384x429.size a
  hwx0_0 : ∀ i : grid0.Coords, EltTy.bits .f32 = 32 ∨ (Rect.block (s := S16384x429) S1024x429.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S429x1024.size a ≤ S429x1024.size a
  hwx0_1 : ∀ i : grid0.Coords, EltTy.bits .f32 = 32 ∨ (Rect.block (s := S429x1024) S429x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S1024.size a
  hwx0_2 : ∀ i : grid0.Coords, EltTy.bits .f32 = 32 ∨ (Rect.block (s := S1024) S1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1.size a ≤ S1024x1.size a
  hwx0_3 : ∀ i : grid0.Coords, EltTy.bits .f32 = 32 ∨ (Rect.block (s := S1024x1) S1024x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1.size a ≤ S1.size a
  hwx0_4 : ∀ i : grid0.Coords, EltTy.bits .f32 = 32 ∨ (Rect.block (s := S1) S1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1.size a ≤ S16384x1.size a
  hwx0_5 : ∀ i : grid0.Coords, EltTy.bits .f32 = 32 ∨ (Rect.block (s := S16384x1) S1024x1.size (cc0_transform_5 i) (hinb0_5 i)).WholeWords (EltTy.packing .f32)

variable [Facts₀]

def gather_S26x100000x16_S16384x26x2_S16384x26x16_2_01_n_n_01_2_1116 : GatherDims S26x100000x16 S16384x26x2 S16384x26x16 where
  offsetDims := [2]
  collapsedSliceDims := [0, 1]
  operandBatchingDims := []
  startIndicesBatchingDims := []
  startIndexMap := [0, 1]
  indexVectorDim := 2
  sliceSizes := ![1, 1, 16]
  wf := gather_S26x100000x16_S16384x26x2_S16384x26x16_2_01_n_n_01_2_1116_wf
def dot_S1024x429_S429x1024_S1024x1024_1_0_0_1_n_n : DotDims S1024x429 S429x1024 S1024x1024 where
  lhsContracting := [1]
  rhsContracting := [0]
  lhsNonContracting := [0]
  rhsNonContracting := [1]
  lhsBatch := []
  rhsBatch := []
  wf := dot_S1024x429_S429x1024_S1024x1024_1_0_0_1_n_n_wf
def dot_S1024x1024_S1024x1_S1024x1_1_0_0_1_n_n : DotDims S1024x1024 S1024x1 S1024x1 where
  lhsContracting := [1]
  rhsContracting := [0]
  lhsNonContracting := [0]
  rhsNonContracting := [1]
  lhsBatch := []
  rhsBatch := []
  wf := dot_S1024x1024_S1024x1_S1024x1_1_0_0_1_n_n_wf

abbrev win0_0 : Pipeline.Window sig grid0 :=
  Pipeline.Window.ofSpec (Memref.whole main_v21) S1024x429.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S429x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S1024x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg7) S1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v22) S1024x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16384x13 : Shape := ⟨2, ![16384, 13]⟩
abbrev S16384x26 : Shape := ⟨2, ![16384, 26]⟩
abbrev S26x100000x16 : Shape := ⟨3, ![26, 100000, 16]⟩
abbrev S26x16 : Shape := ⟨2, ![26, 16]⟩
abbrev S429x1024 : Shape := ⟨2, ![429, 1024]⟩
abbrev S1024 : Shape := ⟨1, ![1024]⟩
abbrev S1024x1 : Shape := ⟨2, ![1024, 1]⟩
abbrev S1 : Shape := ⟨1, ![1]⟩
abbrev S26 : Shape := ⟨1, ![26]⟩
abbrev S1x26 : Shape := ⟨2, ![1, 26]⟩
abbrev S_ : Shape := ⟨0, ![]⟩
abbrev S16384x26x1 : Shape := ⟨3, ![16384, 26, 1]⟩
abbrev S16384x26x2 : Shape := ⟨3, ![16384, 26, 2]⟩
abbrev S16384x26x16 : Shape := ⟨3, ![16384, 26, 16]⟩
abbrev S1x26x16 : Shape := ⟨3, ![1, 26, 16]⟩
abbrev S16384x416 : Shape := ⟨2, ![16384, 416]⟩
abbrev S16384x429 : Shape := ⟨2, ![16384, 429]⟩
abbrev S16384x1024 : Shape := ⟨2, ![16384, 1024]⟩
abbrev S1x1024 : Shape := ⟨2, ![1, 1024]⟩
abbrev S16384x1 : Shape := ⟨2, ![16384, 1]⟩
abbrev S1x1 : Shape := ⟨2, ![1, 1]⟩
abbrev S16384 : Shape := ⟨1, ![16384]⟩

abbrev nBuf : Space → Nat
  | .hbm => 46
  | .vmem => 0
  | .smem => 0
  | _ => 0

abbrev bufTy : (tb : Table) → Fin (tcTables nBuf tb) → BufTy
  | .hbm, ⟨0, _⟩ => ⟨S16384x13, .f32⟩
  | .hbm, ⟨1, _⟩ => ⟨S16384x26, .i32⟩
  | .hbm, ⟨2, _⟩ => ⟨S26x100000x16, .f32⟩
  | .hbm, ⟨3, _⟩ => ⟨S26x16, .f32⟩
  | .hbm, ⟨4, _⟩ => ⟨S429x1024, .f32⟩
  | .hbm, ⟨5, _⟩ => ⟨S1024, .f32⟩
  | .hbm, ⟨6, _⟩ => ⟨S1024x1, .f32⟩
  | .hbm, ⟨7, _⟩ => ⟨S1, .f32⟩
  | .hbm, ⟨8, _⟩ => ⟨S26, .i32⟩
  | .hbm, ⟨9, _⟩ => ⟨S1x26, .i32⟩
  | .hbm, ⟨10, _⟩ => ⟨S_, .i32⟩
  | .hbm, ⟨11, _⟩ => ⟨S1x26, .i32⟩
  | .hbm, ⟨12, _⟩ => ⟨S1x26, .i1⟩
  | .hbm, ⟨13, _⟩ => ⟨S_, .i32⟩
  | .hbm, ⟨14, _⟩ => ⟨S1x26, .i32⟩
  | .hbm, ⟨15, _⟩ => ⟨S1x26, .i32⟩
  | .hbm, ⟨16, _⟩ => ⟨S1x26, .i32⟩
  | .hbm, ⟨17, _⟩ => ⟨S_, .i32⟩
  | .hbm, ⟨18, _⟩ => ⟨S16384x26, .i32⟩
  | .hbm, ⟨19, _⟩ => ⟨S16384x26, .i1⟩
  | .hbm, ⟨20, _⟩ => ⟨S_, .i32⟩
  | .hbm, ⟨21, _⟩ => ⟨S16384x26, .i32⟩
  | .hbm, ⟨22, _⟩ => ⟨S16384x26, .i32⟩
  | .hbm, ⟨23, _⟩ => ⟨S16384x26, .i32⟩
  | .hbm, ⟨24, _⟩ => ⟨S16384x26, .i32⟩
  | .hbm, ⟨25, _⟩ => ⟨S16384x26x1, .i32⟩
  | .hbm, ⟨26, _⟩ => ⟨S16384x26x1, .i32⟩
  | .hbm, ⟨27, _⟩ => ⟨S16384x26x2, .i32⟩
  | .hbm, ⟨28, _⟩ => ⟨S16384x26x16, .f32⟩
  | .hbm, ⟨29, _⟩ => ⟨S1x26x16, .f32⟩
  | .hbm, ⟨30, _⟩ => ⟨S16384x26x16, .f32⟩
  | .hbm, ⟨31, _⟩ => ⟨S16384x26x16, .f32⟩
  | .hbm, ⟨32, _⟩ => ⟨S16384x416, .f32⟩
  | .hbm, ⟨33, _⟩ => ⟨S16384x429, .f32⟩
  | .hbm, ⟨34, _⟩ => ⟨S16384x1024, .f32⟩
  | .hbm, ⟨35, _⟩ => ⟨S1x1024, .f32⟩
  | .hbm, ⟨36, _⟩ => ⟨S16384x1024, .f32⟩
  | .hbm, ⟨37, _⟩ => ⟨S16384x1024, .f32⟩
  | .hbm, ⟨38, _⟩ => ⟨S_, .f32⟩
  | .hbm, ⟨39, _⟩ => ⟨S16384x1024, .f32⟩
  | .hbm, ⟨40, _⟩ => ⟨S16384x1024, .f32⟩
  | .hbm, ⟨41, _⟩ => ⟨S16384x1, .f32⟩
  | .hbm, ⟨42, _⟩ => ⟨S1x1, .f32⟩
  | .hbm, ⟨43, _⟩ => ⟨S16384x1, .f32⟩
  | .hbm, ⟨44, _⟩ => ⟨S16384x1, .f32⟩
  | .hbm, ⟨45, _⟩ => ⟨S16384, .f32⟩
  | _, _ => ⟨S16384x13, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c_1 : Ref sig .tc := ⟨.hbm, 17, rfl⟩
abbrev main_v7 : Ref sig .tc := ⟨.hbm, 18, rfl⟩
abbrev main_v8 : Ref sig .tc := ⟨.hbm, 19, rfl⟩
abbrev main_c_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_call0_cst : Ref sig .tc := ⟨.hbm, 38, rfl⟩
abbrev main_call0_v0 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩

abbrev nD : Nat := 1
abbrev τ : Topo := Topo.v7x

variable {F : FTy → Type} [FloatOps F]

class Facts₀ : Prop where
  bcast_S26_S1x26_1 : S26.BroadcastsInDim S1x26 (![1] : Fin 1 → Fin S1x26.rank)
  bcast_S_S1x26 : S_.BroadcastsInDim S1x26 (![] : Fin 0 → Fin S1x26.rank)
  bcast_S_S16384x26 : S_.BroadcastsInDim S16384x26 (![] : Fin 0 → Fin S16384x26.rank)
  bcast_S1x26_S16384x26_0_1 : S1x26.BroadcastsInDim S16384x26 (![0, 1] : Fin 2 → Fin S16384x26.rank)
  bcast_S16384x26_S16384x26x1_0_1 : S16384x26.BroadcastsInDim S16384x26x1 (![0, 1] : Fin 2 → Fin S16384x26x1.rank)
  concatenates_S16384x26x1_S16384x26x1_S16384x26x2_d2 : Shape.Concatenates [S16384x26x1, S16384x26x1] S16384x26x2 2
  bcast_S26x16_S1x26x16_1_2 : S26x16.BroadcastsInDim S1x26x16 (![1, 2] : Fin 2 → Fin S1x26x16.rank)
  bcast_S1x26x16_S16384x26x16_0_1_2 : S1x26x16.BroadcastsInDim S16384x26x16 (![0, 1, 2] : Fin 3 → Fin S16384x26x16.rank)
  shapeCasts_S16384x26x16_S16384x416 : S16384x26x16.ShapeCasts S16384x416
  concatenates_S16384x13_S16384x416_S16384x429_d1 : Shape.Concatenates [S16384x13, S16384x416] S16384x429 1
  bcast_S1024_S1x1024_1 : S1024.BroadcastsInDim S1x1024 (![1] : Fin 1 → Fin S1x1024.rank)
  bcast_S1x1024_S16384x1024_0_1 : S1x1024.BroadcastsInDim S16384x1024 (![0, 1] : Fin 2 → Fin S16384x1024.rank)
  bcast_S_S16384x1024 : S_.BroadcastsInDim S16384x1024 (![] : Fin 0 → Fin S16384x1024.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  shapeCasts_S16384x1_S16384 : S16384x1.ShapeCasts S16384
  gather_S26x100000x16_S16384x26x2_S16384x26x16_2_01_n_n_01_2_1116_wf : GatherDims.WF S26x100000x16 S16384x26x2 S16384x26x16 [2] [0, 1] [] [0, 1] [] 2 ![1, 1, 16]
  dot_S16384x429_S429x1024_S16384x1024_1_0_0_1_n_n_wf : DotDims.WF S16384x429 S429x1024 S16384x1024 [1] [0] [0] [1] [] []
  dot_S16384x1024_S1024x1_S16384x1_1_0_0_1_n_n_wf : DotDims.WF S16384x1024 S1024x1 S16384x1 [1] [0] [0] [1] [] []

variable [Facts₀]

def gather_S26x100000x16_S16384x26x2_S16384x26x16_2_01_n_n_01_2_1116 : GatherDims S26x100000x16 S16384x26x2 S16384x26x16 where
  offsetDims := [2]
  collapsedSliceDims := [0, 1]
  operandBatchingDims := []
  startIndicesBatchingDims := []
  startIndexMap := [0, 1]
  indexVectorDim := 2
  sliceSizes := ![1, 1, 16]
  wf := gather_S26x100000x16_S16384x26x2_S16384x26x16_2_01_n_n_01_2_1116_wf
def dot_S16384x429_S429x1024_S16384x1024_1_0_0_1_n_n : DotDims S16384x429 S429x1024 S16384x1024 where
  lhsContracting := [1]
  rhsContracting := [0]
  lhsNonContracting := [0]
  rhsNonContracting := [1]
  lhsBatch := []
  rhsBatch := []
  wf := dot_S16384x429_S429x1024_S16384x1024_1_0_0_1_n_n_wf
def dot_S16384x1024_S1024x1_S16384x1_1_0_0_1_n_n : DotDims S16384x1024 S1024x1 S16384x1 where
  lhsContracting := [1]
  rhsContracting := [0]
  lhsNonContracting := [0]
  rhsNonContracting := [1]
  lhsBatch := []
  rhsBatch := []
  wf := dot_S16384x1024_S1024x1_S16384x1_1_0_0_1_n_n_wf

class Facts : Prop extends Facts₀ where

variable [Facts]
-- ==== Proof.Energy.lean ====
/-
  The energy head as a function of whole arrays, one row at a time.

  A row of the concatenated features `X` (429 of them) goes through an affine map into 1024 hidden units,
  each clipped below at zero, and the hidden units through a second affine map into one number:

      hidden r j = max (Σ_k X[r,k] · W1[k,j] + b1[j]) 0
      energy r   = Σ_j hidden r j · W2[j,0] + b2[0]

  over the extended reals. The number of rows `n` is a parameter, so that one definition reads both a block of
  rows and the whole array; a row of a block and the row of the array it is cut from have the same features,
  hence the same energy (`energy_congr`). No law of arithmetic is used anywhere: both programs compute these
  very sums in this very order of operations, so nothing here needs the inputs to be finite.
-/
import Idealize.ShloMosaic.PureOps.Ideal
import Idealize.ShloMosaic.Lib.ValueIdx

noncomputable section

open scoped BigOperators

namespace Cert.EnergyHead

open Idealize.ShloMosaic Idealize.ShloMosaic.ValueIdx

/-- Hidden unit `j` of row `r`: the affine image of the row's features, clipped below at the zero word's value. -/
def hidden (n : Nat) (X : (⟨2, ![n, 429]⟩ : Shape).Idx → EReal) (W1 : (⟨2, ![429, 1024]⟩ : Shape).Idx → EReal)
    (b1 : (⟨1, ![1024]⟩ : Shape).Idx → EReal) (r : Fin n) (j : Fin 1024) : EReal :=
  max ((∑ k : Fin 429, X (ix2 r k) * W1 (ix2 k j)) + b1 (ix1 j)) (Ideal.ofBits .f32 0x00000000#32)

/-- The energy of row `r`: the hidden units' affine image, one number. -/
def energy (n : Nat) (X : (⟨2, ![n, 429]⟩ : Shape).Idx → EReal) (W1 : (⟨2, ![429, 1024]⟩ : Shape).Idx → EReal)
    (b1 : (⟨1, ![1024]⟩ : Shape).Idx → EReal) (W2 : (⟨2, ![1024, 1]⟩ : Shape).Idx → EReal)
    (b2 : (⟨1, ![1]⟩ : Shape).Idx → EReal) (r : Fin n) : EReal :=
  (∑ j : Fin 1024, hidden n X W1 b1 r j * W2 (ix2 j (0 : Fin 1))) + b2 (ix1 (0 : Fin 1))

/-- Two rows with the same features have the same energy, whatever arrays they are rows of. -/
theorem energy_congr (n n' : Nat) (X : (⟨2, ![n, 429]⟩ : Shape).Idx → EReal) (X' : (⟨2, ![n', 429]⟩ : Shape).Idx → EReal)
    (W1 : (⟨2, ![429, 1024]⟩ : Shape).Idx → EReal) (b1 : (⟨1, ![1024]⟩ : Shape).Idx → EReal)
    (W2 : (⟨2, ![1024, 1]⟩ : Shape).Idx → EReal) (b2 : (⟨1, ![1]⟩ : Shape).Idx → EReal) (r : Fin n) (r' : Fin n')
    (h : ∀ k : Fin 429, X (ix2 r k) = X' (ix2 r' k)) :
    energy n X W1 b1 W2 b2 r = energy n' X' W1 b1 W2 b2 r' := by
  unfold energy hidden
  simp only [h]

/-- The energies of all 16384 rows as a flat array. -/
def energies (X : (⟨2, ![16384, 429]⟩ : Shape).Idx → EReal) (W1 : (⟨2, ![429, 1024]⟩ : Shape).Idx → EReal)
    (b1 : (⟨1, ![1024]⟩ : Shape).Idx → EReal) (W2 : (⟨2, ![1024, 1]⟩ : Shape).Idx → EReal)
    (b2 : (⟨1, ![1]⟩ : Shape).Idx → EReal) : (⟨1, ![16384]⟩ : Shape).Idx → EReal :=
  fun i => energy 16384 X W1 b1 W2 b2 (i 0)

/-- The same as a column `[16384, 1]`. -/
def energyColumn (X : (⟨2, ![16384, 429]⟩ : Shape).Idx → EReal) (W1 : (⟨2, ![429, 1024]⟩ : Shape).Idx → EReal)
    (b1 : (⟨1, ![1024]⟩ : Shape).Idx → EReal) (W2 : (⟨2, ![1024, 1]⟩ : Shape).Idx → EReal)
    (b2 : (⟨1, ![1]⟩ : Shape).Idx → EReal) : (⟨2, ![16384, 1]⟩ : Shape).Idx → EReal :=
  fun i => energy 16384 X W1 b1 W2 b2 (i 0)

theorem energies_apply (X : (⟨2, ![16384, 429]⟩ : Shape).Idx → EReal) (W1 : (⟨2, ![429, 1024]⟩ : Shape).Idx → EReal)
    (b1 : (⟨1, ![1024]⟩ : Shape).Idx → EReal) (W2 : (⟨2, ![1024, 1]⟩ : Shape).Idx → EReal)
    (b2 : (⟨1, ![1]⟩ : Shape).Idx → EReal) (r : Fin 16384) :
    energies X W1 b1 W2 b2 (ix1 r) = energy 16384 X W1 b1 W2 b2 r := rfl

theorem energyColumn_apply (X : (⟨2, ![16384, 429]⟩ : Shape).Idx → EReal) (W1 : (⟨2, ![429, 1024]⟩ : Shape).Idx → EReal)
    (b1 : (⟨1, ![1024]⟩ : Shape).Idx → EReal) (W2 : (⟨2, ![1024, 1]⟩ : Shape).Idx → EReal)
    (b2 : (⟨1, ![1]⟩ : Shape).Idx → EReal) (r : Fin 16384) (q : Fin 1) :
    energyColumn X W1 b1 W2 b2 (ix2 r q) = energy 16384 X W1 b1 W2 b2 r := rfl

end Cert.EnergyHead

end
-- ==== Proof.Block.lean ====
/-
  What the kernel body stores, read one row at a time.

  The body loads a block of 1024 feature rows, both weight matrices and both biases, and stores one column of
  1024 numbers. Its two matrix products start from a zero accumulator, so each entry is the plain sum of
  products over the contracted axis (429 features, then 1024 hidden units); the biases are a row and a single
  entry repeated down the block; the changes of float format are the identity on extended reals. Row `p` of
  the stored column is therefore `EnergyHead.energy` of row `p` of the loaded block.
-/
import proofs.«157960_j33913061769498_2_alg».proof.Proof.Gen.KernelIdeal.Skeleton
import proofs.«157960_j33913061769498_2_alg».proof.Proof.Energy
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Block

open Cert.KernelIdeal Cert.KernelIdeal.Gen
open Idealize.ShloMosaic Idealize.ShloMosaic.ValueIdx Cert.EnergyHead

/-- The operands' indices of the first product on the axes that are not contracted: the output's own coordinates. -/
theorem first_lhs_row (i : S1024x1024.Idx) (q : dot_S1024x429_S429x1024_S1024x1024_1_0_0_1_n_n.contr.Idx) : (dot_S1024x429_S429x1024_S1024x1024_1_0_0_1_n_n.lhsIdx i q 0).val = (i 0).val := by
  unfold DotDims.lhsIdx
  rw [dif_neg (show ¬(0 : Fin S1024x429.rank) ∈ dot_S1024x429_S429x1024_S1024x1024_1_0_0_1_n_n.lhsBatch by decide), dif_pos (show (0 : Fin S1024x429.rank) ∈ dot_S1024x429_S429x1024_S1024x1024_1_0_0_1_n_n.lhsNonContracting by decide)]
  rfl
theorem first_rhs_col (i : S1024x1024.Idx) (q : dot_S1024x429_S429x1024_S1024x1024_1_0_0_1_n_n.contr.Idx) : (dot_S1024x429_S429x1024_S1024x1024_1_0_0_1_n_n.rhsIdx i q 1).val = (i 1).val := by
  unfold DotDims.rhsIdx
  rw [dif_neg (show ¬(1 : Fin S429x1024.rank) ∈ dot_S1024x429_S429x1024_S1024x1024_1_0_0_1_n_n.rhsBatch by decide), dif_pos (show (1 : Fin S429x1024.rank) ∈ dot_S1024x429_S429x1024_S1024x1024_1_0_0_1_n_n.rhsNonContracting by decide)]
  rfl

/-- The operands' indices of the second product on the axes that are not contracted: the output's own coordinates. -/
theorem second_lhs_row (i : S1024x1.Idx) (q : dot_S1024x1024_S1024x1_S1024x1_1_0_0_1_n_n.contr.Idx) : (dot_S1024x1024_S1024x1_S1024x1_1_0_0_1_n_n.lhsIdx i q 0).val = (i 0).val := by
  unfold DotDims.lhsIdx
  rw [dif_neg (show ¬(0 : Fin S1024x1024.rank) ∈ dot_S1024x1024_S1024x1_S1024x1_1_0_0_1_n_n.lhsBatch by decide), dif_pos (show (0 : Fin S1024x1024.rank) ∈ dot_S1024x1024_S1024x1_S1024x1_1_0_0_1_n_n.lhsNonContracting by decide)]
  rfl
theorem second_rhs_col (i : S1024x1.Idx) (q : dot_S1024x1024_S1024x1_S1024x1_1_0_0_1_n_n.contr.Idx) : (dot_S1024x1024_S1024x1_S1024x1_1_0_0_1_n_n.rhsIdx i q 1).val = (i 1).val := by
  unfold DotDims.rhsIdx
  rw [dif_neg (show ¬(1 : Fin S1024x1.rank) ∈ dot_S1024x1024_S1024x1_S1024x1_1_0_0_1_n_n.rhsBatch by decide), dif_pos (show (1 : Fin S1024x1.rank) ∈ dot_S1024x1024_S1024x1_S1024x1_1_0_0_1_n_n.rhsNonContracting by decide)]
  rfl

/-- The first product at `(p, j)`: features of row `p` against column `j` of the first weight matrix. -/
theorem features_times_w1 (l : FVec Ideal S1024x429 .bf16) (r : FVec Ideal S429x1024 .bf16) (p : Fin 1024) (j : Fin 1024) :
    matmul dot_S1024x429_S429x1024_S1024x1024_1_0_0_1_n_n none l r (constant (F := Ideal) S1024x1024 .f32 0x00000000#32) (ix2 p j)
      = ∑ k : Fin 429, l (ix2 p k) * r (ix2 k j) := by
  simp only [matmul]
  rw [Ideal.matmul_constant_zero_apply, ← Equiv.sum_comp (contrEquiv1 dot_S1024x429_S429x1024_S1024x1024_1_0_0_1_n_n 429 rfl rfl).symm]
  refine Finset.sum_congr rfl fun k _ => ?_
  have hk := contrEquiv1_symm_val dot_S1024x429_S429x1024_S1024x1024_1_0_0_1_n_n 429 rfl rfl k
  have el : dot_S1024x429_S429x1024_S1024x1024_1_0_0_1_n_n.lhsIdx (ix2 p j) ((contrEquiv1 dot_S1024x429_S429x1024_S1024x1024_1_0_0_1_n_n 429 rfl rfl).symm k) = ix2 p k := funext fun a => Fin.ext (by
    match a with
    | ⟨0, _⟩ => exact first_lhs_row _ _
    | ⟨1, _⟩ => exact (dot_S1024x429_S429x1024_S1024x1024_1_0_0_1_n_n.lhsIdx_val_of_single rfl _ _).trans hk)
  have er : dot_S1024x429_S429x1024_S1024x1024_1_0_0_1_n_n.rhsIdx (ix2 p j) ((contrEquiv1 dot_S1024x429_S429x1024_S1024x1024_1_0_0_1_n_n 429 rfl rfl).symm k) = ix2 k j := funext fun a => Fin.ext (by
    match a with
    | ⟨0, _⟩ => exact (dot_S1024x429_S429x1024_S1024x1024_1_0_0_1_n_n.rhsIdx_val_of_single rfl _ _).trans hk
    | ⟨1, _⟩ => exact first_rhs_col _ _)
  rw [el, er]

/-- The second product at `(p, q)`: hidden units of row `p` against the second weight matrix's one column. -/
theorem hidden_times_w2 (l : FVec Ideal S1024x1024 .bf16) (r : FVec Ideal S1024x1 .bf16) (p : Fin 1024) (q : Fin 1) :
    matmul dot_S1024x1024_S1024x1_S1024x1_1_0_0_1_n_n none l r (constant (F := Ideal) S1024x1 .f32 0x00000000#32) (ix2 p q)
      = ∑ j : Fin 1024, l (ix2 p j) * r (ix2 j q) := by
  simp only [matmul]
  rw [Ideal.matmul_constant_zero_apply, ← Equiv.sum_comp (contrEquiv1 dot_S1024x1024_S1024x1_S1024x1_1_0_0_1_n_n 1024 rfl rfl).symm]
  refine Finset.sum_congr rfl fun k _ => ?_
  have hk := contrEquiv1_symm_val dot_S1024x1024_S1024x1_S1024x1_1_0_0_1_n_n 1024 rfl rfl k
  have el : dot_S1024x1024_S1024x1_S1024x1_1_0_0_1_n_n.lhsIdx (ix2 p q) ((contrEquiv1 dot_S1024x1024_S1024x1_S1024x1_1_0_0_1_n_n 1024 rfl rfl).symm k) = ix2 p k := funext fun a => Fin.ext (by
    match a with
    | ⟨0, _⟩ => exact second_lhs_row _ _
    | ⟨1, _⟩ => exact (dot_S1024x1024_S1024x1_S1024x1_1_0_0_1_n_n.lhsIdx_val_of_single rfl _ _).trans hk)
  have er : dot_S1024x1024_S1024x1_S1024x1_1_0_0_1_n_n.rhsIdx (ix2 p q) ((contrEquiv1 dot_S1024x1024_S1024x1_S1024x1_1_0_0_1_n_n 1024 rfl rfl).symm k) = ix2 k q := funext fun a => Fin.ext (by
    match a with
    | ⟨0, _⟩ => exact (dot_S1024x1024_S1024x1_S1024x1_1_0_0_1_n_n.rhsIdx_val_of_single rfl _ _).trans hk
    | ⟨1, _⟩ => exact second_rhs_col _ _)
  rw [el, er]

/-- THE STORED COLUMN at row `p` is the energy of row `p` of the loaded block. -/
theorem payload_row (v0 : Vec Ideal S1024x429 .f32) (v3 : Vec Ideal S429x1024 .f32) (v6 : Vec Ideal S1024 .f32)
    (v13 : Vec Ideal S1024x1 .f32) (v16 : Vec Ideal S1 .f32) (p : Fin 1024) (q : Fin 1) :
    k0_pay1 (F := Ideal) v0 v3 v6 v13 v16 (ix2 p q) = energy 1024 v0 v3 v6 v13 v16 p := by
  obtain rfl : q = 0 := Subsingleton.elim _ _
  unfold k0_pay1
  refine (addf_apply _ _ _).trans ?_
  rw [hidden_times_w2, broadcastTo_1b_ab_apply, shapeCast_a_1a_apply]
  simp only [truncf_apply, maximumf_apply, addf_apply, broadcast_apply, features_times_w1, broadcastTo_1b_ab_apply,
    shapeCast_a_1a_apply, shapeCast_self]
  rfl

end Cert.KernelIdeal.Block

end
-- ==== Proof.KernelArray.lean ====
/-
  From blocks to the array: what the kernel's output column holds after the run.

  The grid has 16 points. At point `t` the features' window is rows `1024 t … 1024 t + 1023` of the feature
  array, the two weight matrices and the two biases are whole arrays at every point, and the output's window is
  rows `1024 t … 1024 t + 1023` of the output column. The body's stored column at row `p` is the energy of row
  `p` of the block (Block.lean), which is row `1024 t + p` of the feature array; so what point `t` writes back is
  block `t` of ONE column, the energies of all 16384 rows. The 16 blocks tile the output column (row `r` is in
  block `r / 1024`), so after the run the output column IS that column.
-/
import proofs.«157960_j33913061769498_2_alg».proof.Proof.Gen.KernelIdeal.Frame
import proofs.«157960_j33913061769498_2_alg».proof.Proof.Block
import Idealize.ShloMosaic.Lib.Pipeline.Value

noncomputable section

open scoped BigOperators

namespace Cert.KernelIdeal.Array

open Cert.KernelIdeal Cert.KernelIdeal.Gen Cert.KernelIdeal.Block
open Idealize.ShloMosaic Idealize.ShloMosaic.TcCoe Idealize.SL.Sem Idealize.ShloMosaic.ValueIdx Cert.EnergyHead
open Idealize.ShloMosaic.Pipeline (Dat)

variable (m : (ℓ : Loc nD τ sig) → Buf (Elt Ideal) ℓ)

theorem zero2 : (![0, 0] : Fin 2 → Nat) = fun _ => 0 := funext fun a => by fin_cases a <;> rfl
theorem zero1 : (![0] : Fin 1 → Nat) = fun _ => 0 := funext fun a => by fin_cases a <;> rfl

/-- The column the output ends holding: the energies of the rows of the features as the region finds them. -/
abbrev column (c : Dev nD) : S16384x1.Idx → EReal :=
  energyColumn (V m c main_v21) (V m c main_arg4) (V m c main_arg5) (V m c main_arg6) (V m c main_arg7)

/-- Where each window sits at point `t`: the features' and the output's on block row `t`, the rest at the origin. -/
theorem window_at : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

/-! ## The input blocks at a point, as pieces of the arrays -/

/-- Row `p` of the features' block at point `t` is row `1024 t + p` of the feature array. -/
theorem features_block (c : Dev nD) (t : Fin cfg0.N) (p : Fin 1024) (k : Fin 429) (r : Fin 16384)
    (hr : r.val = t.val * 1024 + p.val) :
    (iblk m c 0 t : Vec Ideal S1024x429 .f32) (ix2 p k) = (V m c main_v21 : S16384x429.Idx → EReal) (ix2 r k) := by
  obtain ⟨e00, e01, -⟩ := window_at t
  show (V m c main_v21 : S16384x429.Idx → EReal) (((cfg0.win 0).blk t).view.emb (ix2 p k)) = _
  refine congrArg (V m c main_v21 : S16384x429.Idx → EReal) (funext fun a => Fin.ext ?_)
  match a with
  | ⟨0, _⟩ => show win0_0.index t (0 : Fin 2) * 1024 + 1 * p.val = r.val; rw [e00, hr]; omega
  | ⟨1, _⟩ => show win0_0.index t (1 : Fin 2) * 429 + 1 * k.val = k.val; rw [e01]; omega

/-- The first weight matrix's block is the whole matrix. -/
theorem w1_block (c : Dev nD) (t : Fin cfg0.N) :
    (iblk m c 1 t : Vec Ideal S429x1024 .f32) = (V m c main_arg4 : S429x1024.Idx → EReal) := by
  obtain ⟨-, -, e10, e11, -⟩ := window_at t
  funext y
  show (V m c main_arg4 : S429x1024.Idx → EReal) (((cfg0.win 1).blk t).view.emb y) = _
  refine congrArg (V m c main_arg4 : S429x1024.Idx → EReal) (funext fun a => Fin.ext ?_)
  match a with
  | ⟨0, _⟩ => show win0_1.index t (0 : Fin 2) * 429 + 1 * (y 0).val = (y 0).val; rw [e10]; omega
  | ⟨1, _⟩ => show win0_1.index t (1 : Fin 2) * 1024 + 1 * (y 1).val = (y 1).val; rw [e11]; omega

/-- The first bias's block is the whole bias. -/
theorem b1_block (c : Dev nD) (t : Fin cfg0.N) :
    (iblk m c 2 t : Vec Ideal S1024 .f32) = (V m c main_arg5 : S1024.Idx → EReal) := by
  obtain ⟨-, -, -, -, e2, -⟩ := window_at t
  funext y
  show (V m c main_arg5 : S1024.Idx → EReal) (((cfg0.win 2).blk t).view.emb y) = _
  refine congrArg (V m c main_arg5 : S1024.Idx → EReal) (funext fun a => Fin.ext ?_)
  match a with
  | ⟨0, _⟩ => show win0_2.index t (0 : Fin 1) * 1024 + 1 * (y 0).val = (y 0).val; rw [e2]; omega

/-- The second weight matrix's block is the whole matrix. -/
theorem w2_block (c : Dev nD) (t : Fin cfg0.N) :
    (iblk m c 3 t : Vec Ideal S1024x1 .f32) = (V m c main_arg6 : S1024x1.Idx → EReal) := by
  obtain ⟨-, -, -, -, -, e30, e31, -⟩ := window_at t
  funext y
  show (V m c main_arg6 : S1024x1.Idx → EReal) (((cfg0.win 3).blk t).view.emb y) = _
  refine congrArg (V m c main_arg6 : S1024x1.Idx → EReal) (funext fun a => Fin.ext ?_)
  match a with
  | ⟨0, _⟩ => show win0_3.index t (0 : Fin 2) * 1024 + 1 * (y 0).val = (y 0).val; rw [e30]; omega
  | ⟨1, _⟩ => show win0_3.index t (1 : Fin 2) * 1 + 1 * (y 1).val = (y 1).val; rw [e31]; omega

/-- The second bias's block is the whole bias. -/
theorem b2_block (c : Dev nD) (t : Fin cfg0.N) :
    (iblk m c 4 t : Vec Ideal S1 .f32) = (V m c main_arg7 : S1.Idx → EReal) := by
  obtain ⟨-, -, -, -, -, -, -, e4, -⟩ := window_at t
  funext y
  show (V m c main_arg7 : S1.Idx → EReal) (((cfg0.win 4).blk t).view.emb y) = _
  refine congrArg (V m c main_arg7 : S1.Idx → EReal) (funext fun a => Fin.ext ?_)
  match a with
  | ⟨0, _⟩ => show win0_4.index t (0 : Fin 1) * 1 + 1 * (y 0).val = (y 0).val; rw [e4]; omega

/-! ## What a point writes back -/

/-- The stored column of a block of rows cut from an array at row offset `1024 t`, read at `(p, q)`, is the
    array's energy column at `(1024 t + p, q)`: stated over variables, instantiated at the point's blocks below. -/
theorem stored_row (x0 : Vec Ideal S1024x429 .f32) (x1 : Vec Ideal S429x1024 .f32) (x2 : Vec Ideal S1024 .f32)
    (x3 : Vec Ideal S1024x1 .f32) (x4 : Vec Ideal S1 .f32) (A : S16384x429.Idx → EReal) (tv : Nat) (ht : tv < 16)
    (h0 : ∀ (p : Fin 1024) (k : Fin 429) (r : Fin 16384), r.val = tv * 1024 + p.val → x0 (ix2 p k) = A (ix2 r k))
    (p : Fin 1024) (q : Fin 1) (r : Fin 16384) (hr : r.val = tv * 1024 + p.val) :
    k0_pay1 (F := Ideal) x0 x1 x2 x3 x4 (ix2 p q) = energyColumn A x1 x2 x3 x4 (ix2 r q) := by
  rw [payload_row, energyColumn_apply]
  exact energy_congr 1024 16384 x0 A x1 x2 x3 x4 p r fun k => h0 p k r hr

/-- WHAT POINT `t` WRITES BACK is block `t` of the energy column. -/
theorem flushed_eq (c : Dev nD) (t : Fin cfg0.N) :
    (dats m 0 c).flushed 5 t = ((cfg0.win 5).blk t).view.read (Elt Ideal) (column m c) := by
  show (cfg0.win 5).cut (grid0.coords t) ((dats m 0 c).after 5 t) = _
  rw [after0_5]
  unfold out0_5
  rw [View.canon_unit_zero zero2]
  simp only [View.ld_unit_zero (S := S1024x429) zero2, View.ld_unit_zero (S := S429x1024) zero2,
    View.ld_unit_zero (S := S1024) zero1, View.ld_unit_zero (S := S1024x1) zero2, View.ld_unit_zero (S := S1) zero1]
  rw [w1_block, b1_block, w2_block, b2_block]
  obtain ⟨-, -, -, -, -, -, -, -, e50, e51⟩ := window_at t
  have hN : t.val < 16 := lt_of_lt_of_eq t.isLt (show cfg0.N = 16 from N_0)
  funext j
  obtain ⟨p, q, rfl⟩ : ∃ (p : Fin 1024) (q : Fin 1), j = ix2 p q := ⟨j 0, j 1, eq_ix2 j⟩
  show k0_pay1 (F := Ideal) (iblk m c 0 t) (V m c main_arg4) (V m c main_arg5) (V m c main_arg6) (V m c main_arg7) (ix2 p q)
    = column m c (((cfg0.win 5).blk t).view.emb (ix2 p q))
  have hq : q.val = 0 := by omega
  refine (stored_row (iblk m c 0 t) _ _ _ _ (V m c main_v21) t.val hN
    (fun p k r hr => features_block m c t p k r hr) p q ⟨t.val * 1024 + p.val, by omega⟩ rfl).trans ?_
  refine congrArg (column m c) (funext fun a => Fin.ext ?_)
  match a with
  | ⟨0, _⟩ => show t.val * 1024 + p.val = win0_5.index t (0 : Fin 2) * 1024 + 1 * p.val; rw [e50]; omega
  | ⟨1, _⟩ => show q.val = win0_5.index t (1 : Fin 2) * 1 + 1 * q.val; rw [e51]; omega

/-! ## The blocks tile the output column -/

/-- An index of the output column is in point `t`'s block iff each coordinate is in the block's range on its axis. -/
theorem mem_block (t : Fin cfg0.N) (i : S16384x1.Idx) :
    i ∈ ((cfg0.win 5).blk t).view.set ↔ ∀ a : Fin 2, win0_5.index t a * S1024x1.size a ≤ (i a).val ∧ (i a).val < win0_5.index t a * S1024x1.size a + S1024x1.size a := by
  show i ∈ ((View.whole main_v22).slice (win0_5.rect t)).set ↔ _
  rw [View.set_slice_whole, Rect.mem_set_unit]
  exact Iff.rfl

/-- Row `r` of the output column is written back at point `r / 1024`. -/
theorem covered (i : S16384x1.Idx) :
    ∃ t : Fin cfg0.N, (cfg0.win 5).flush t = true ∧ i ∈ ((cfg0.win 5).blk t).view.set := by
  have h0 : (i 0).val < 16384 := (i 0).isLt
  have h1 : (i 1).val < 1 := (i 1).isLt
  let t : Fin cfg0.N := ⟨(i 0).val / 1024, by rw [show cfg0.N = 16 from N_0]; omega⟩
  have htv : t.val = (i 0).val / 1024 := rfl
  obtain ⟨-, -, -, -, -, -, -, -, e50, e51⟩ := window_at t
  refine ⟨t, flush0_5 t, ?_⟩
  rw [mem_block]
  intro a
  match a with
  | ⟨0, _⟩ => show win0_5.index t (0 : Fin 2) * 1024 ≤ (i 0).val ∧ (i 0).val < win0_5.index t (0 : Fin 2) * 1024 + 1024; rw [e50, htv]; omega
  | ⟨1, _⟩ => show win0_5.index t (1 : Fin 2) * 1 ≤ (i 1).val ∧ (i 1).val < win0_5.index t (1 : Fin 2) * 1 + 1; rw [e51]; omega

/-- THE OUTPUT COLUMN after the run: the energies of the rows of the features. -/
theorem final (c : Dev nD) : (dats m 0 c).arrAt 5 cfg0.N = column m c :=
  (dats m 0 c).arrAt_eq_of_cover 5 (column m c) (fun t _ => flushed_eq m c t) (covered)

end Cert.KernelIdeal.Array

end
-- ==== Proof.KernelRun.lean ====
/-
  The kernel program's run, read: its result is the energies of the rows of the features.

  Around the region the program has host operations on both sides. Before it, the features are built: the
  categorical indices select rows of the embedding tables, the embedding bias is added, and the result is laid
  beside the numeric inputs — the very operations the reference starts with, so the feature array the region
  finds is the reference's feature stage of the same arguments (`features_eq`); nothing of it is opened. After
  it, the output column `[16384, 1]` is reshaped to the flat result: entry `r` of the flat array is entry
  `(r, 0)` of the column (`flat_of_column`). Between the two, the region leaves the column of energies
  (KernelArray.lean). The weights and biases reach the region as launched.
-/
import proofs.«157960_j33913061769498_2_alg».proof.Proof.KernelArray
import proofs.«157960_j33913061769498_2_alg».proof.Proof.Gen.ReferenceIdeal.Read
import Idealize.ShloMosaic.Lib.StableHlo.Run

noncomputable section

open scoped BigOperators

namespace Cert.KernelIdeal.Run

open Cert.KernelIdeal Cert.KernelIdeal.Gen Cert.KernelIdeal.Array
open Idealize.ShloMosaic Idealize.ShloMosaic.TcCoe Idealize.SL.Sem Idealize.ShloMosaic.ValueIdx Cert.EnergyHead
open Idealize.ShloMosaic.Pipeline (Dat)

variable (m : (ℓ : Loc nD τ sig) → Buf (Elt Ideal) ℓ) (ρ : Dev nD → PrngReg)

/-- The features of the launch arguments: the reference's feature stage, as a function of the four arrays it reads. -/
abbrev features (c : Dev nD) : S16384x429.Idx → EReal :=
  Cert.ReferenceIdeal.Read.val_main_v21 (F := Ideal) (m ((c.tc : Thread nD τ).loc main_arg0)) (m ((c.tc : Thread nD τ).loc main_arg1))
    (m ((c.tc : Thread nD τ).loc main_arg2)) (m ((c.tc : Thread nD τ).loc main_arg3))

set_option maxHeartbeats 2000000 in
/-- The feature array the region finds is the features of the launch arguments: the host operations before the
    region are the reference's own first operations. -/
theorem features_eq (c : Dev nD) : (V m c main_v21 : S16384x429.Idx → EReal) = features m c := by
  show StableHlo.after hostOps0 (fun b => m (c, b)) (Proc.devRef .tc main_v21) = _
  after_results_simp <;> rfl

/-- A column `[16384, 1]` reshaped to a flat array reads, at `r`, the column at `(r, 0)`. -/
theorem flat_of_column (x : S16384x1.Idx → EReal) (r : Fin 16384) :
    shapeCast S16384 x shapeCasts_S16384x1_S16384 (ix1 r) = x (ix2 r (0 : Fin 1)) :=
  shapeCast_apply x shapeCasts_S16384x1_S16384 _ _ (by
    rw [Shape.rowMajor_val_two, Shape.rowMajor_val_one]
    show r.val * 1 + 0 = r.val
    omega)

/-- The energy column reshaped flat is the flat array of energies. -/
theorem flat_energies (X : S16384x429.Idx → EReal) (W1 : S429x1024.Idx → EReal) (b1 : S1024.Idx → EReal)
    (W2 : S1024x1.Idx → EReal) (b2 : S1.Idx → EReal) :
    shapeCast S16384 (energyColumn X W1 b1 W2 b2) shapeCasts_S16384x1_S16384 = energies X W1 b1 W2 b2 := by
  funext i
  obtain ⟨r, rfl⟩ : ∃ r : Fin 16384, i = ix1 r := ⟨i 0, eq_ix1 i⟩
  rw [flat_of_column]
  rfl

/-- THE RESULT after the host operations that follow the region: the energies of the features' rows. -/
theorem result_eq (c : Dev nD) :
    Pipeline.afterTail₀ cfgs (dats m) 0 (V0 m) [hostOps1] c main_v23
      = energies (features m c) (m ((c.tc : Thread nD τ).loc main_arg4)) (m ((c.tc : Thread nD τ).loc main_arg5))
          (m ((c.tc : Thread nD τ).loc main_arg6)) (m ((c.tc : Thread nD τ).loc main_arg7)) := by
  unfold Pipeline.afterTail₀
  show StableHlo.after hostOps1 _ (Proc.devRef .tc main_v23) = _
  after_results
  rw [(Pipeline.withArrays_arr spec0 launch0.win.arr_inj c _ _ 5).trans (final m c)]
  unfold column
  rw [features_eq, V_main_arg4, V_main_arg5, V_main_arg6, V_main_arg7]
  exact flat_energies _ _ _ _ _

/-- THE RUN, read: every weakly fair execution of the kernel program terminates with the result at the energies of
    the features' rows and the arguments unchanged. -/
theorem run : θ_run defs (onTc (τ := τ) (main (F := Ideal))) ⟨m, fun _ => 0, ρ⟩ fun r => ∀ c : Dev nD,
      r.2.mem ((c.tc : Thread nD τ).loc main_v23)
        = energies (features m c) (m ((c.tc : Thread nD τ).loc main_arg4)) (m ((c.tc : Thread nD τ).loc main_arg5))
            (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨((h c).2 main_v23 (Pipeline.mem_restRefs_of main_v23 (by decide) (by decide))).trans (result_eq m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      ((h c).1 1).trans (((dats m 0 c).arrAt_in 1 rfl _).trans ((A_eq m c 1).trans (V_main_arg4 m c))),
      ((h c).1 2).trans (((dats m 0 c).arrAt_in 2 rfl _).trans ((A_eq m c 2).trans (V_main_arg5 m c))),
      ((h c).1 3).trans (((dats m 0 c).arrAt_in 3 rfl _).trans ((A_eq m c 3).trans (V_main_arg6 m c))),
      ((h c).1 4).trans (((dats m 0 c).arrAt_in 4 rfl _).trans ((A_eq m c 4).trans (V_main_arg7 m c)))⟩)
    (run_main m ρ)

end Cert.KernelIdeal.Run

end
-- ==== Proof.RefEnergy.lean ====
/-
  The reference computes the energy head.

  Read one element at a time, the reference's last stages are: the flat result at `r` is the column at `(r, 0)`;
  the column is a product of the hidden layer with `W2` summed over the 1024 hidden units, plus `b2`; a hidden
  unit is the larger of zero and a product of the features with `W1` summed over the 429 features, plus `b1`.
  With the features (the stage that concatenates the numeric inputs with the gathered embeddings) left as they
  are, that is `EnergyHead.energy` at row `r`, term for term.
-/
import proofs.«157960_j33913061769498_2_alg».proof.Proof.Gen.ReferenceIdeal.Read
import proofs.«157960_j33913061769498_2_alg».proof.Proof.Energy

noncomputable section

open scoped BigOperators

namespace Cert.ReferenceIdeal.RefValue

open Cert.ReferenceIdeal Cert.ReferenceIdeal.Gen Cert.ReferenceIdeal.Read
open Idealize.ShloMosaic Idealize.ShloMosaic.ValueIdx Cert.EnergyHead

/-! ## Where each stage reads its operands, by coordinates -/

theorem col_of_flat (r : Fin 16384) : idx_main_v31 (ix1 r) = ix2 r (0 : Fin 1) :=
  funext fun a => Fin.ext (by match a with | ⟨0, _⟩ => exact Nat.div_one _ | ⟨1, _⟩ => rfl)

theorem bias2_idx (i : S16384x1.Idx) : idx_main_v28 (idx_main_v29 i) = ix1 (0 : Fin 1) :=
  funext fun a => Fin.ext (by match a with | ⟨0, _⟩ => rfl)

theorem hid_idx (r : Fin 16384) (q : Fin 1) (j : Fin 1024) : lidx_main_v27 (ix2 r q) j = ix2 r j :=
  funext fun a => Fin.ext (by match a with | ⟨0, _⟩ => rfl | ⟨1, _⟩ => rfl)

theorem w2_idx (r : Fin 16384) (q : Fin 1) (j : Fin 1024) : ridx_main_v27 (ix2 r q) j = ix2 j q :=
  funext fun a => Fin.ext (by match a with | ⟨0, _⟩ => rfl | ⟨1, _⟩ => rfl)

theorem feat_idx (r : Fin 16384) (j : Fin 1024) (k : Fin 429) : lidx_main_v22 (ix2 r j) k = ix2 r k :=
  funext fun a => Fin.ext (by match a with | ⟨0, _⟩ => rfl | ⟨1, _⟩ => rfl)

theorem w1_idx (r : Fin 16384) (j : Fin 1024) (k : Fin 429) : ridx_main_v22 (ix2 r j) k = ix2 k j :=
  funext fun a => Fin.ext (by match a with | ⟨0, _⟩ => rfl | ⟨1, _⟩ => rfl)

theorem bias1_idx (r : Fin 16384) (j : Fin 1024) : idx_main_v23 (idx_main_v24 (ix2 r j)) = ix1 j :=
  funext fun a => Fin.ext (by match a with | ⟨0, _⟩ => rfl)

/-! ## The stages, read -/

/-- A hidden unit of the reference: the clipped affine image of the row's features. -/
theorem hidden_eq (x0 : (⟨S16384x13, .f32⟩ : BufTy).Contents (Elt Ideal)) (x1 : (⟨S16384x26, .i32⟩ : BufTy).Contents (Elt Ideal))
    (x2 : (⟨S26x100000x16, .f32⟩ : BufTy).Contents (Elt Ideal)) (x3 : (⟨S26x16, .f32⟩ : BufTy).Contents (Elt Ideal))
    (x4 : (⟨S429x1024, .f32⟩ : BufTy).Contents (Elt Ideal)) (x5 : (⟨S1024, .f32⟩ : BufTy).Contents (Elt Ideal))
    (r : Fin 16384) (j : Fin 1024) :
    val_main_v26 (F := Ideal) x0 x1 x2 x3 x4 x5 (ix2 r j)
      = hidden 16384 (val_main_v21 (F := Ideal) x0 x1 x2 x3) x4 x5 r j := by
  rw [val_main_v26_apply, val_main_v25_apply, val_main_v22_apply, val_main_v24_apply, val_main_v23_apply,
    val_main_call0_v0_apply, val_main_call0_cst_apply, bias1_idx]
  simp only [feat_idx, w1_idx]
  rfl

/-- The reference's result at row `r` is the energy of row `r` of its features. -/
theorem result_row (x0 : (⟨S16384x13, .f32⟩ : BufTy).Contents (Elt Ideal)) (x1 : (⟨S16384x26, .i32⟩ : BufTy).Contents (Elt Ideal))
    (x2 : (⟨S26x100000x16, .f32⟩ : BufTy).Contents (Elt Ideal)) (x3 : (⟨S26x16, .f32⟩ : BufTy).Contents (Elt Ideal))
    (x4 : (⟨S429x1024, .f32⟩ : BufTy).Contents (Elt Ideal)) (x5 : (⟨S1024, .f32⟩ : BufTy).Contents (Elt Ideal))
    (x6 : (⟨S1024x1, .f32⟩ : BufTy).Contents (Elt Ideal)) (x7 : (⟨S1, .f32⟩ : BufTy).Contents (Elt Ideal)) (r : Fin 16384) :
    val_main_v31 (F := Ideal) x0 x1 x2 x3 x4 x5 x6 x7 (ix1 r)
      = energy 16384 (val_main_v21 (F := Ideal) x0 x1 x2 x3) x4 x5 x6 x7 r := by
  rw [val_main_v31_apply, col_of_flat, val_main_v30_apply, val_main_v27_apply, val_main_v29_apply, val_main_v28_apply,
    bias2_idx]
  simp only [hid_idx, w2_idx, hidden_eq]
  rfl

/-- The reference's whole result: the energies of its features' rows. -/
theorem result_eq (x0 : (⟨S16384x13, .f32⟩ : BufTy).Contents (Elt Ideal)) (x1 : (⟨S16384x26, .i32⟩ : BufTy).Contents (Elt Ideal))
    (x2 : (⟨S26x100000x16, .f32⟩ : BufTy).Contents (Elt Ideal)) (x3 : (⟨S26x16, .f32⟩ : BufTy).Contents (Elt Ideal))
    (x4 : (⟨S429x1024, .f32⟩ : BufTy).Contents (Elt Ideal)) (x5 : (⟨S1024, .f32⟩ : BufTy).Contents (Elt Ideal))
    (x6 : (⟨S1024x1, .f32⟩ : BufTy).Contents (Elt Ideal)) (x7 : (⟨S1, .f32⟩ : BufTy).Contents (Elt Ideal)) :
    val_main_v31 (F := Ideal) x0 x1 x2 x3 x4 x5 x6 x7
      = energies (val_main_v21 (F := Ideal) x0 x1 x2 x3) x4 x5 x6 x7 := by
  funext i
  obtain ⟨r, rfl⟩ : ∃ r : Fin 16384, i = ix1 r := ⟨i 0, eq_ix1 i⟩
  rw [energies_apply]
  exact result_row x0 x1 x2 x3 x4 x5 x6 x7 r

end Cert.ReferenceIdeal.RefValue

end
-- ==== Proof.lean ====
/-
  The certificate of the embedding energy head: a Pallas kernel for the two-layer head, with the embedding
  lookup and the concatenation done on the host, against the plain reference.

  Both programs compute, for each of the 16384 rows, the same number: the row's features (13 numeric inputs beside
  26 gathered embedding rows with their bias) go through `W1` and `b1` into 1024 hidden units clipped below at
  zero, and those through `W2` and `b2` into one energy (Proof/Energy.lean). The kernel program builds the
  features by the reference's own first operations and hands them to a region that computes 1024 rows per grid
  point with two matrix products from a zero accumulator (Proof/Block.lean, Proof/KernelArray.lean,
  Proof/KernelRun.lean); the reference computes all rows by two host matrix products (Proof/RefEnergy.lean).
  Over the extended reals a change of float format is the identity and each matrix product is the plain sum of
  products, so the two results are one term; no law of arithmetic joins them, and the precondition (finite
  inputs) is never opened. The three frames are the generated frame runs, and the idealized kernel is the
  kernel's own text read over the extended reals, with nothing rewritten.
-/
import proofs.«157960_j33913061769498_2_alg».proof.Defs
import proofs.«157960_j33913061769498_2_alg».proof.Proof.Gen.Kernel
import proofs.«157960_j33913061769498_2_alg».proof.Proof.Gen.Kernel.Frame
import proofs.«157960_j33913061769498_2_alg».proof.Proof.Gen.KernelIdeal
import proofs.«157960_j33913061769498_2_alg».proof.Proof.Gen.KernelIdeal.Frame
import proofs.«157960_j33913061769498_2_alg».proof.Proof.Gen.ReferenceIdeal
import proofs.«157960_j33913061769498_2_alg».proof.Proof.Gen.ReferenceIdeal.Run
import proofs.«157960_j33913061769498_2_alg».proof.Proof.Gen.ReferenceIdeal.Read
import proofs.«157960_j33913061769498_2_alg».proof.Proof.Gen.Pre_finite_inputs
import proofs.«157960_j33913061769498_2_alg».proof.Proof.KernelRun
import proofs.«157960_j33913061769498_2_alg».proof.Proof.RefEnergy
import Idealize.ShloMosaic.Adequacy
import Idealize.ShloMosaic.Init

noncomputable section

namespace Cert.Proof

open Idealize.ShloMosaic Idealize.ShloMosaic.TcCoe Idealize.SL.Sem

/-- The kernel as printed runs and leaves its arguments as launched. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is a host program: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Over the extended reals, from memories that agree on the arguments, both programs end with the energies of the
    rows of the same features under the same weights and biases. -/
theorem algebraic : Cert.algebraic_KernelIdeal_ReferenceIdeal := by
  intro m ρ m' ρ' _ hagree
  refine ⟨_, Cert.KernelIdeal.Run.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7⟩ := hagree c
  rw [Cert.ReferenceIdeal.Read.val_main_v31_eq, Cert.ReferenceIdeal.RefValue.result_eq, a0, a1, a2, a3, a4, a5, a6, a7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
